-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S10000x512 .f32) (main_arg1 : IVec S2x160000 32) (main_arg2 : FVec F S512x512 .f32) (main_arg3 : FVec F S512x512 .f32) (main_arg4 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S1x512 : Shape := ⟨2, ![1, 512]⟩
abbrev S1000x512 : Shape := ⟨2, ![1000, 512]⟩
abbrev S1000x1 : Shape := ⟨2, ![1000, 1]⟩

abbrev nBuf : Space → Nat
  | .hbm => 39
  | .vmem => 11
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S1x160000, .i32⟩
  | .hbm, ⟨6, _⟩ => ⟨S160000, .i32⟩
  | .hbm, ⟨7, _⟩ => ⟨S1x160000, .i32⟩
  | .hbm, ⟨8, _⟩ => ⟨S160000, .i32⟩
  | .hbm, ⟨9, _⟩ => ⟨S_, .i32⟩
  | .hbm, ⟨10, _⟩ => ⟨S160000, .i32⟩
  | .hbm, ⟨11, _⟩ => ⟨S160000, .i1⟩
  | .hbm, ⟨12, _⟩ => ⟨S_, .i32⟩
  | .hbm, ⟨13, _⟩ => ⟨S160000, .i32⟩
  | .hbm, ⟨14, _⟩ => ⟨S160000, .i32⟩
  | .hbm, ⟨15, _⟩ => ⟨S160000, .i32⟩
  | .hbm, ⟨16, _⟩ => ⟨S160000x1, .i32⟩
  | .hbm, ⟨17, _⟩ => ⟨S160000x512, .f32⟩
  | .hbm, ⟨18, _⟩ => ⟨S_, .f32⟩
  | .hbm, ⟨19, _⟩ => ⟨S10000x512, .f32⟩
  | .hbm, ⟨20, _⟩ => ⟨S160000x1, .i32⟩
  | .hbm, ⟨21, _⟩ => ⟨S10000x512, .f32⟩
  | .hbm, ⟨22, _⟩ => ⟨S_, .f32⟩
  | .hbm, ⟨23, _⟩ => ⟨S160000, .f32⟩
  | .hbm, ⟨24, _⟩ => ⟨S_, .f32⟩
  | .hbm, ⟨25, _⟩ => ⟨S10000, .f32⟩
  | .hbm, ⟨26, _⟩ => ⟨S160000x1, .i32⟩
  | .hbm, ⟨27, _⟩ => ⟨S10000, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S512x512, .bf16⟩
  | .hbm, ⟨36, _⟩ => ⟨S512x512, .bf16⟩
  | .hbm, ⟨37, _⟩ => ⟨S1x512, .f32⟩
  | .hbm, ⟨38, _⟩ => ⟨S10000x512, .f32⟩
  | .local _ .vmem, ⟨0, _⟩ => ⟨S1000x512, .f32⟩
  | .local _ .vmem, ⟨1, _⟩ => ⟨S1000x512, .f32⟩
  | .local _ .vmem, ⟨2, _⟩ => ⟨S1000x1, .f32⟩
  | .local _ .vmem, ⟨3, _⟩ => ⟨S1000x1, .f32⟩
  | .local _ .vmem, ⟨4, _⟩ => ⟨S1000x512, .f32⟩
  | .local _ .vmem, ⟨5, _⟩ => ⟨S1000x512, .f32⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S1000x512, .f32⟩
  | .local _ .vmem, ⟨10, _⟩ => ⟨S1000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  shapeCasts_S10000_S10000x1 : S10000.ShapeCasts S10000x1
  bitsLt_bf16_f32 : FTy.bits .bf16 < FTy.bits .f32
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S10000x1.size a
  hwx0_1 : ∀ i : grid0.Coords, EltTy.bits .f32 = 32 ∨ (Rect.block (s := S10000x1) S1000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S10000x512.size a
  hwx0_2 : ∀ i : grid0.Coords, EltTy.bits .f32 = 32 ∨ (Rect.block (s := S10000x512) S1000x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x512.size a ≤ S10000x512.size a
  hwx0_6 : ∀ i : grid0.Coords, EltTy.bits .f32 = 32 ∨ (Rect.block (s := S10000x512) S1000x512.size (cc0_transform_6 i) (hinb0_6 i)).WholeWords (EltTy.packing .f32)

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v13) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1000x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S1x512 : Shape := ⟨2, ![1, 512]⟩

abbrev nBuf : Space → Nat
  | .hbm => 49
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S1x160000, .i32⟩
  | .hbm, ⟨6, _⟩ => ⟨S160000, .i32⟩
  | .hbm, ⟨7, _⟩ => ⟨S1x160000, .i32⟩
  | .hbm, ⟨8, _⟩ => ⟨S160000, .i32⟩
  | .hbm, ⟨9, _⟩ => ⟨S_, .i32⟩
  | .hbm, ⟨10, _⟩ => ⟨S160000, .i32⟩
  | .hbm, ⟨11, _⟩ => ⟨S160000, .i1⟩
  | .hbm, ⟨12, _⟩ => ⟨S_, .i32⟩
  | .hbm, ⟨13, _⟩ => ⟨S160000, .i32⟩
  | .hbm, ⟨14, _⟩ => ⟨S160000, .i32⟩
  | .hbm, ⟨15, _⟩ => ⟨S160000, .i32⟩
  | .hbm, ⟨16, _⟩ => ⟨S160000x1, .i32⟩
  | .hbm, ⟨17, _⟩ => ⟨S160000x512, .f32⟩
  | .hbm, ⟨18, _⟩ => ⟨S_, .f32⟩
  | .hbm, ⟨19, _⟩ => ⟨S10000x512, .f32⟩
  | .hbm, ⟨20, _⟩ => ⟨S160000x1, .i32⟩
  | .hbm, ⟨21, _⟩ => ⟨S10000x512, .f32⟩
  | .hbm, ⟨22, _⟩ => ⟨S_, .f32⟩
  | .hbm, ⟨23, _⟩ => ⟨S160000, .f32⟩
  | .hbm, ⟨24, _⟩ => ⟨S_, .f32⟩
  | .hbm, ⟨25, _⟩ => ⟨S10000, .f32⟩
  | .hbm, ⟨26, _⟩ => ⟨S160000x1, .i32⟩
  | .hbm, ⟨27, _⟩ => ⟨S10000, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S10000x1, .f32⟩
  | .hbm, ⟨32, _⟩ => ⟨S10000x512, .f32⟩
  | .hbm, ⟨33, _⟩ => ⟨S10000x512, .f32⟩
  | .hbm, ⟨34, _⟩ => ⟨S10000x512, .f32⟩
  | .hbm, ⟨35, _⟩ => ⟨S1x512, .f32⟩
  | .hbm, ⟨36, _⟩ => ⟨S10000x512, .f32⟩
  | .hbm, ⟨37, _⟩ => ⟨S10000x512, .f32⟩
  | .hbm, ⟨38, _⟩ => ⟨S10000x512, .f32⟩
  | .hbm, ⟨39, _⟩ => ⟨S10000x512, .f32⟩
  | .hbm, ⟨40, _⟩ => ⟨S10000x512, .f32⟩
  | .hbm, ⟨41, _⟩ => ⟨S10000x512, .f32⟩
  | .hbm, ⟨42, _⟩ => ⟨S_, .f32⟩
  | .hbm, ⟨43, _⟩ => ⟨S10000x512, .f32⟩
  | .hbm, ⟨44, _⟩ => ⟨S10000x512, .f32⟩
  | .hbm, ⟨45, _⟩ => ⟨S_, .f32⟩
  | .hbm, ⟨46, _⟩ => ⟨S10000x512, .f32⟩
  | .hbm, ⟨47, _⟩ => ⟨S10000x512, .f32⟩
  | .hbm, ⟨48, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S10000x512_S512x512_S10000x512_1_0_0_1_n_n_wf : DotDims.WF S10000x512 S512x512 S10000x512 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.LibLogisticExpanded.lean ====
/-
  The logistic function on the extended reals in its expanded spelling.

  A program that does not use a logistic operation writes σ(z) as 1.0 / (1.0 + exp (-z)), with the f32 word of 1.0 for
  both ones. On the extended reals (division, exponential and negation extended to ±∞ as the ideal instance extends
  them) this is the ideal instance's logistic function, which is what a logistic operation denotes there: the word of
  1.0 is the real number 1, and the rest is the definition. Imports only the ideal instance.
-/
import Idealize.ShloMosaic.PureOps.Ideal

noncomputable section

namespace Cert.Lib.Logistic

open Idealize.ShloMosaic

/-- The f32 word of 1.0 is the extended real 1. -/
theorem one_word : Ideal.ofBits .f32 0x3F800000#32 = 1 := by
  simp [Ideal.ofBits, Ideal.ieee, -EReal.coe_mul]; norm_num

/-- The expanded logistic 1.0 / (1.0 + exp (-z)), both ones the f32 word of 1.0, is the logistic function, for every
    extended real `z` (the infinities included). -/
theorem logistic_expanded (z : EReal) :
    Ideal.div (Ideal.ofBits .f32 0x3F800000#32) (Ideal.ofBits .f32 0x3F800000#32 + Ideal.exp (-z)) = Ideal.logistic z := by
  rw [one_word]; rfl

/-- The same read through the operations of the float interface at the ideal instance, host side: divide, add,
    exponential and negate of the host program. -/
theorem host_logistic_expanded (z : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf z)))
      = FloatOps.logistic z :=
  logistic_expanded z

end Cert.Lib.Logistic

end
-- ==== Proof.SageLayer.lean ====
/-
  One mean-aggregation graph layer, as a function of its arrays, on the extended reals.

  From the neighbour sums `a` (node × feature), a clipped in-degree `d` per node, the node features `x`, two weight
  matrices and a bias, node `p`'s pre-activation in output channel `q` is

      h(p,q) = Σ_k (a(p,k) / d(p)) · W_l(k,q)  +  b(q)  +  Σ_k x(p,k) · W_r(k,q)

  and the layer's output is h · σ(h), σ the logistic function. Two spellings of the same number meet here. The mean
  a(p,k) / d(p) may be taken as the product a(p,k) · (1 / d(p)) with a reciprocal computed once per node: on the extended
  reals a quotient by a NONZERO divisor is the product with the inverse, and 1 / d is that inverse, so the two agree for
  every a(p,k), the infinities included — no finiteness is needed, only d(p) ≠ 0, which a degree clipped from below at 1
  has. And the bias may be added after both sums instead of between them: addition of extended reals is commutative and
  associative.
-/
import Idealize.ShloMosaic.PureOps.Ideal
import Idealize.ShloMosaic.Lib.ValueIdx
import proofs.«145215_j14697378087214_2_alg».proof.Proof.LibLogisticExpanded

noncomputable section

namespace Cert.Sage

open Idealize.ShloMosaic Idealize.ShloMosaic.ValueIdx
open scoped BigOperators

/-- The f32 word of 1.0. -/
abbrev oneWord : BitVec 32 := 0x3F800000#32

/-- Node `p`'s pre-activation in channel `q`: the mean of the neighbour sums through `W_l`, plus the bias, plus the
    node's own features through `W_r`. -/
def preact (a : (⟨2, ![10000, 512]⟩ : Shape).Idx → EReal) (d : (⟨1, ![10000]⟩ : Shape).Idx → EReal)
    (x : (⟨2, ![10000, 512]⟩ : Shape).Idx → EReal) (wl wr : (⟨2, ![512, 512]⟩ : Shape).Idx → EReal)
    (b : (⟨1, ![512]⟩ : Shape).Idx → EReal) (p : Fin 10000) (q : Fin 512) : EReal :=
  (∑ k : Fin 512, Ideal.div (a (ix2 p k)) (d (ix1 p)) * wl (ix2 k q)) + b (ix1 q) + ∑ k : Fin 512, x (ix2 p k) * wr (ix2 k q)

/-- The layer: h · σ(h) of the pre-activation, index by index. -/
def layer (a : (⟨2, ![10000, 512]⟩ : Shape).Idx → EReal) (d : (⟨1, ![10000]⟩ : Shape).Idx → EReal)
    (x : (⟨2, ![10000, 512]⟩ : Shape).Idx → EReal) (wl wr : (⟨2, ![512, 512]⟩ : Shape).Idx → EReal)
    (b : (⟨1, ![512]⟩ : Shape).Idx → EReal) : (⟨2, ![10000, 512]⟩ : Shape).Idx → EReal :=
  fun i => preact a d x wl wr b (i 0) (i 1) * Ideal.logistic (preact a d x wl wr b (i 0) (i 1))

/-- A quotient by a nonzero extended real is the product with the reciprocal 1.0 / d. -/
theorem mul_reciprocal (a d : EReal) (hd : d ≠ 0) : a * Ideal.div (Ideal.ofBits .f32 oneWord) d = Ideal.div a d := by
  rw [Cert.Lib.Logistic.one_word]
  unfold Ideal.div
  rw [if_neg hd, if_neg hd, one_mul]

/-- A value clipped from below at 1.0 is not zero. -/
theorem clipped_ne_zero (z : EReal) : max z (Ideal.ofBits .f32 oneWord) ≠ 0 := by
  rw [Cert.Lib.Logistic.one_word]
  exact ne_of_gt (lt_of_lt_of_le zero_lt_one (le_max_right z 1))

/-- The pre-activation with the mean taken through the per-node reciprocal `s = 1.0 / d(p)` and the bias added last. -/
theorem preact_by_reciprocal (a : (⟨2, ![10000, 512]⟩ : Shape).Idx → EReal) (d : (⟨1, ![10000]⟩ : Shape).Idx → EReal)
    (x : (⟨2, ![10000, 512]⟩ : Shape).Idx → EReal) (wl wr : (⟨2, ![512, 512]⟩ : Shape).Idx → EReal)
    (b : (⟨1, ![512]⟩ : Shape).Idx → EReal) (p : Fin 10000) (q : Fin 512) (hd : d (ix1 p) ≠ 0) :
    ((∑ k : Fin 512, (a (ix2 p k) * Ideal.div (Ideal.ofBits .f32 oneWord) (d (ix1 p))) * wl (ix2 k q))
        + ∑ k : Fin 512, x (ix2 p k) * wr (ix2 k q)) + b (ix1 q)
      = preact a d x wl wr b p q := by
  unfold preact
  rw [add_right_comm]
  refine congrArg (· + _) (congrArg (· + _) (Finset.sum_congr rfl fun k _ => ?_))
  rw [mul_reciprocal _ _ hd]

end Cert.Sage

end
-- ==== Proof.ReferenceLayer.lean ====
/-
  The reference computes the layer.

  Read one operation at a time, the reference's result at node `p`, channel `q` is h · (1.0 / (1.0 + exp (-h))) with
  h = (Σ_k (a(p,k) / d(p)) · W_l(k,q) + b(q)) + Σ_k x(p,k) · W_r(k,q), where `a` is its scatter-added neighbour sums and
  `d` its in-degree clipped from below at 1: the two matrix products are sums over the contracted axis, the broadcasts of
  the degree along the features and of the bias along the nodes read their operand at the node, respectively the channel,
  and the expanded quotient is the logistic function. Neither the gather nor the two scatter-adds are opened: the
  statement is over whatever they produce.
-/
import proofs.«145215_j14697378087214_2_alg».proof.Proof.Gen.ReferenceIdeal.Read
import proofs.«145215_j14697378087214_2_alg».proof.Proof.SageLayer

noncomputable section

namespace Cert.Sage.Reference

open Cert.ReferenceIdeal Cert.ReferenceIdeal.Gen Cert.ReferenceIdeal.Read
open Idealize.ShloMosaic Idealize.ShloMosaic.ValueIdx
open scoped BigOperators

/-! ### Where each operation reads its operands, by coordinates -/

theorem left_of_first_product (p : Fin 10000) (q k : Fin 512) : lidx_main_v23 (ix2 p q) k = ix2 p k :=
  funext fun a => Fin.ext (by match a with | ⟨0, _⟩ => rfl | ⟨1, _⟩ => rfl)

theorem right_of_first_product (p : Fin 10000) (q k : Fin 512) : ridx_main_v23 (ix2 p q) k = ix2 k q :=
  funext fun a => Fin.ext (by match a with | ⟨0, _⟩ => rfl | ⟨1, _⟩ => rfl)

theorem left_of_second_product (p : Fin 10000) (q k : Fin 512) : lidx_main_v27 (ix2 p q) k = ix2 p k :=
  funext fun a => Fin.ext (by match a with | ⟨0, _⟩ => rfl | ⟨1, _⟩ => rfl)

theorem right_of_second_product (p : Fin 10000) (q k : Fin 512) : ridx_main_v27 (ix2 p q) k = ix2 k q :=
  funext fun a => Fin.ext (by match a with | ⟨0, _⟩ => rfl | ⟨1, _⟩ => rfl)

/-- The degree broadcast along the features is read at the node. -/
theorem degree_at_node (p : Fin 10000) (k : Fin 512) : idx_main_v20 (idx_main_v21 (ix2 p k)) = ix1 p :=
  funext fun a => Fin.ext (by match a with | ⟨0, _⟩ => rfl)

/-- The bias broadcast along the nodes is read at the channel. -/
theorem bias_at_channel (p : Fin 10000) (q : Fin 512) : idx_main_v24 (idx_main_v25 (ix2 p q)) = ix1 q :=
  funext fun a => Fin.ext (by match a with | ⟨0, _⟩ => rfl)

/-! ### The pre-activation and the result -/

/-- The reference's sum of its three terms is the layer's pre-activation of its own neighbour sums and clipped degree. -/
theorem preactivation (x0 : (⟨S10000x512, .f32⟩ : BufTy).Contents (Elt Ideal)) (x1 : (⟨S2x160000, .i32⟩ : BufTy).Contents (Elt Ideal))
    (x2 x3 : (⟨S512x512, .f32⟩ : BufTy).Contents (Elt Ideal)) (x4 : (⟨S512, .f32⟩ : BufTy).Contents (Elt Ideal))
    (p : Fin 10000) (q : Fin 512) :
    val_main_v28 (F := Ideal) x0 x1 x2 x3 x4 (ix2 p q)
      = Cert.Sage.preact (val_main_v13 (F := Ideal) x0 x1) (val_main_v19 (F := Ideal) x1) x0 x2 x3 x4 p q := by
  simp only [val_main_v28_apply, val_main_v26_apply, val_main_v23_apply, val_main_v22_apply, val_main_v21_apply,
    val_main_v20_apply, val_main_v25_apply, val_main_v24_apply, val_main_v27_apply,
    left_of_first_product, right_of_first_product, left_of_second_product, right_of_second_product,
    degree_at_node, bias_at_channel]
  rfl

/-- The reference's result array is the layer of its neighbour sums, its clipped degree and the arguments. -/
theorem result_is_layer (x0 : (⟨S10000x512, .f32⟩ : BufTy).Contents (Elt Ideal)) (x1 : (⟨S2x160000, .i32⟩ : BufTy).Contents (Elt Ideal))
    (x2 x3 : (⟨S512x512, .f32⟩ : BufTy).Contents (Elt Ideal)) (x4 : (⟨S512, .f32⟩ : BufTy).Contents (Elt Ideal)) :
    val_main_v35 (F := Ideal) x0 x1 x2 x3 x4
      = Cert.Sage.layer (val_main_v13 (F := Ideal) x0 x1) (val_main_v19 (F := Ideal) x1) x0 x2 x3 x4 := by
  funext i
  obtain ⟨p, q, rfl⟩ : ∃ (p : Fin 10000) (q : Fin 512), i = ix2 p q := ⟨i 0, i 1, eq_ix2 i⟩
  simp only [val_main_v35_apply, val_main_v34_apply, val_main_v33_apply, val_main_cst_5_apply, val_main_v32_apply,
    val_main_v31_apply, val_main_cst_4_apply, val_main_v30_apply, val_main_v29_apply]
  rw [Cert.Lib.Logistic.host_logistic_expanded, preactivation]
  rfl

/-- The reference's clipped degree is nowhere zero. -/
theorem degree_ne_zero (x1 : (⟨S2x160000, .i32⟩ : BufTy).Contents (Elt Ideal)) (j : S10000.Idx) :
    val_main_v19 (F := Ideal) x1 j ≠ 0 := by
  rw [val_main_v19_apply, val_main_v18_apply, val_main_cst_3_apply]
  exact Cert.Sage.clipped_ne_zero _

end Cert.Sage.Reference

end
-- ==== Proof.RegionInputs.lean ====
/-
  What the region finds in its window arrays.

  Before the region the host operations of the kernel's program write six arrays from the arguments: the neighbour
  sums (a gather of the source nodes' rows scatter-added at the target nodes), the reciprocals 1.0 / max(deg, 1.0) laid
  out as a column, the two weight matrices in the matrix unit's format (the same numbers on the extended reals) and the
  bias laid out as a row; the node features are staged as launched. The gather and the scatter-adds are the very
  operations the reference applies to the same arguments, so the neighbour sums and the clipped degree are named by
  the reference's own stages and never opened. Read at an entry: the reciprocal column at node `p` is
  1.0 / d(p), the bias row at channel `q` is b(q).
-/
import proofs.«145215_j14697378087214_2_alg».proof.Proof.Gen.KernelIdeal.Frame
import proofs.«145215_j14697378087214_2_alg».proof.Proof.Gen.ReferenceIdeal.Read
import proofs.«145215_j14697378087214_2_alg».proof.Proof.SageLayer
import Idealize.ShloMosaic.Lib.StableHlo.Run
import Idealize.ShloMosaic.Lib.Pipeline.Value
import Idealize.ShloMosaic.Lib.ValueIdx

noncomputable section

namespace Cert.Sage.Inputs

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The neighbour sums: the reference's scatter-add stage of the same two arguments. -/
theorem sums_entering (c : Dev nD) :
    (V m c main_v13 : S10000x512.Idx → EReal)
      = Cert.ReferenceIdeal.Read.val_main_v13 (F := Ideal) (m ((c : Thread nD τ).loc main_arg0)) (m ((c : Thread nD τ).loc main_arg1)) := by
  dsimp only [Gen.V, Gen.hostOps0]
  after_results_simp
  rfl

/-- The reciprocals: 1.0 over the reference's clipped degree, as a column. -/
theorem reciprocals_entering (c : Dev nD) :
    (V m c main_v22 : S10000x1.Idx → EReal)
      = shapeCast S10000x1 (Host.divf (F := Ideal) (s := S10000) (φ := .f32) (Cert.ReferenceIdeal.Read.val_main_v18 (F := Ideal))
          (Cert.ReferenceIdeal.Read.val_main_v19 (F := Ideal) (m ((c : Thread nD τ).loc main_arg1)))) shapeCasts_S10000_S10000x1 := by
  dsimp only [Gen.V, Gen.hostOps0]
  after_results_simp
  rfl

/-- The left weights: the argument, in the matrix unit's format. -/
theorem left_weights_entering (c : Dev nD) :
    (V m c main_v23 : S512x512.Idx → EReal) = (m ((c : Thread nD τ).loc main_arg2) : S512x512.Idx → EReal) := by
  dsimp only [Gen.V, Gen.hostOps0]
  after_results_simp
  rfl

/-- The right weights: the argument, in the matrix unit's format. -/
theorem right_weights_entering (c : Dev nD) :
    (V m c main_v24 : S512x512.Idx → EReal) = (m ((c : Thread nD τ).loc main_arg3) : S512x512.Idx → EReal) := by
  dsimp only [Gen.V, Gen.hostOps0]
  after_results_simp
  rfl

/-- The bias as a row. -/
theorem bias_entering (c : Dev nD) :
    (V m c main_v25 : S1x512.Idx → EReal)
      = shapeCast S1x512 (m ((c : Thread nD τ).loc main_arg4) : S512.Idx → EReal) shapeCasts_S512_S1x512 := by
  dsimp only [Gen.V, Gen.hostOps0]
  after_results_simp
  rfl

/-- A quotient of two host arrays at an entry is the quotient of the entries. -/
theorem host_quotient_at {s : Shape} (a b : FVec Ideal s .f32) (i : s.Idx) :
    Host.divf (F := Ideal) a b i = Ideal.div (a i) (b i) := rfl

/-- The reciprocal column at node `p` is 1.0 / d(p). -/
theorem reciprocal_at (c : Dev nD) (p : Fin 10000) :
    (V m c main_v22 : S10000x1.Idx → EReal) (ix2 p 0)
      = Ideal.div (Ideal.ofBits .f32 Cert.Sage.oneWord)
          (Cert.ReferenceIdeal.Read.val_main_v19 (F := Ideal) (m ((c : Thread nD τ).loc main_arg1)) (ix1 p)) := by
  rw [reciprocals_entering]
  refine (shapeCast_apply (Host.divf (F := Ideal) (s := S10000) (φ := .f32) (Cert.ReferenceIdeal.Read.val_main_v18 (F := Ideal))
    (Cert.ReferenceIdeal.Read.val_main_v19 (F := Ideal) (m ((c : Thread nD τ).loc main_arg1)))) shapeCasts_S10000_S10000x1 (ix2 p 0) (ix1 p) ?_).trans ?_
  · rewrite [Shape.rowMajor_val_one, Shape.rowMajor_val_two]
    show p.val = p.val * 1 + 0
    omega
  · rw [host_quotient_at, Cert.ReferenceIdeal.Read.val_main_v18_apply, Cert.ReferenceIdeal.Read.val_main_cst_3_apply]
    rfl

/-- The bias row at channel `q` is b(q). -/
theorem bias_at (c : Dev nD) (q : Fin 512) :
    (V m c main_v25 : S1x512.Idx → EReal) (ix2 0 q) = (m ((c : Thread nD τ).loc main_arg4) : S512.Idx → EReal) (ix1 q) := by
  rw [bias_entering]
  refine shapeCast_apply _ shapeCasts_S512_S1x512 (ix2 0 q) (ix1 q) ?_
  rewrite [Shape.rowMajor_val_one, Shape.rowMajor_val_two]
  show q.val = 0 * 512 + q.val
  omega

end Cert.Sage.Inputs

end
-- ==== Proof.KernelBody.lean ====
/-
  The kernel body at one element of a block.

  At a grid point the body holds a block of 1000 nodes: their neighbour sums `A`, their reciprocals `s` as a column, their
  own features `X`, the two weight matrices whole and the bias as a row. It scales each row of `A` by its node's
  reciprocal, multiplies into `W_l`, adds `X` times `W_r` and then the bias, and stores h · σ(h). Changing the float
  format on the way into the matrix unit is the identity on the extended reals, and a matrix product into a zero
  accumulator is the sum over the contracted axis. So at row `r`, channel `q` of the block the stored value is
  h · σ(h) with

      h = (Σ_k (A(r,k) · s(r)) · W_l(k,q)  +  Σ_k X(r,k) · W_r(k,q))  +  b(q).
-/
import proofs.«145215_j14697378087214_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.Sage.Body

open Cert.KernelIdeal Cert.KernelIdeal.Gen
open Idealize.ShloMosaic Idealize.ShloMosaic.ValueIdx
open scoped BigOperators

/-- The dimension numbers of the body's two matrix products: rows of the left operand against columns of the right. -/
abbrev rowsByColumns : DotDims S1000x512 S512x512 S1000x512 := dot_S1000x512_S512x512_S1000x512_1_0_0_1_n_n

theorem left_row (i : S1000x512.Idx) (c : rowsByColumns.contr.Idx) : (rowsByColumns.lhsIdx i c 0).val = (i 0).val := by
  unfold DotDims.lhsIdx
  rw [dif_neg (show ¬(0 : Fin S1000x512.rank) ∈ rowsByColumns.lhsBatch by decide),
    dif_pos (show (0 : Fin S1000x512.rank) ∈ rowsByColumns.lhsNonContracting by decide)]
  rfl

theorem right_column (i : S1000x512.Idx) (c : rowsByColumns.contr.Idx) : (rowsByColumns.rhsIdx i c 1).val = (i 1).val := by
  unfold DotDims.rhsIdx
  rw [dif_neg (show ¬(1 : Fin S512x512.rank) ∈ rowsByColumns.rhsBatch by decide),
    dif_pos (show (1 : Fin S512x512.rank) ∈ rowsByColumns.rhsNonContracting by decide)]
  rfl

/-- A matrix product of the body into the zero accumulator, at row `r` and channel `q`: the sum over the 512 contracted
    coordinates of the left operand's row entry times the right operand's column entry. -/
theorem product_at {φ₁ φ₂ : FTy} (l : FVec Ideal S1000x512 φ₁) (w : FVec Ideal S512x512 φ₂) (r : Fin 1000) (q : Fin 512) :
    matmul rowsByColumns none l w (constant (F := Ideal) S1000x512 .f32 0x00000000#32) (ix2 r q)
      = ∑ k : Fin 512, l (ix2 r k) * w (ix2 k q) := by
  simp only [matmul]
  rw [Ideal.matmul_constant_zero_apply, ← Equiv.sum_comp (contrEquiv1 rowsByColumns 512 rfl rfl).symm]
  refine Finset.sum_congr rfl fun k _ => ?_
  have hk := contrEquiv1_symm_val rowsByColumns 512 rfl rfl k
  have el : rowsByColumns.lhsIdx (ix2 r q) ((contrEquiv1 rowsByColumns 512 rfl rfl).symm k) = ix2 r k :=
    funext fun a => Fin.ext (by
      match a with
      | ⟨0, _⟩ => exact left_row _ _
      | ⟨1, _⟩ => exact (rowsByColumns.lhsIdx_val_of_single rfl _ _).trans hk)
  have er : rowsByColumns.rhsIdx (ix2 r q) ((contrEquiv1 rowsByColumns 512 rfl rfl).symm k) = ix2 k q :=
    funext fun a => Fin.ext (by
      match a with
      | ⟨0, _⟩ => exact (rowsByColumns.rhsIdx_val_of_single rfl _ _).trans hk
      | ⟨1, _⟩ => exact right_column _ _)
  rw [el, er]

/-- The reciprocals' column broadcast along the features reads the row's entry. -/
theorem column_along_features (s : FVec Ideal S1000x1 .f32) (h : S1000x1.Broadcasts S1000x512) (r : Fin 1000) (k : Fin 512) :
    broadcastTo S1000x512 s h (ix2 r k) = s (ix2 r 0) :=
  broadcastTo_apply s h (ix2 r k) (ix2 r 0) (fun a => match a with
    | ⟨0, _⟩ => by show r.val = if (1000 : Nat) = 1 then 0 else r.val; rw [if_neg (by decide)]
    | ⟨1, _⟩ => by show 0 = if (1 : Nat) = 1 then 0 else k.val; rw [if_pos rfl])

/-- The bias row broadcast along the nodes reads the channel's entry. -/
theorem row_along_nodes (b : FVec Ideal S1x512 .f32) (h : S1x512.Broadcasts S1000x512) (r : Fin 1000) (q : Fin 512) :
    broadcastTo S1000x512 b h (ix2 r q) = b (ix2 0 q) :=
  broadcastTo_apply b h (ix2 r q) (ix2 0 q) (fun a => match a with
    | ⟨0, _⟩ => by show 0 = if (1 : Nat) = 1 then 0 else r.val; rw [if_pos rfl]
    | ⟨1, _⟩ => by show q.val = if (512 : Nat) = 1 then 0 else q.val; rw [if_neg (by decide)])

/-- The body's pre-activation at row `r`, channel `q` of its blocks. -/
def blockPreact (A : FVec Ideal S1000x512 .f32) (s : FVec Ideal S1000x1 .f32) (X : FVec Ideal S1000x512 .f32)
    (Wl Wr : FVec Ideal S512x512 .bf16) (b : FVec Ideal S1x512 .f32) (r : Fin 1000) (q : Fin 512) : EReal :=
  ((∑ k : Fin 512, (A (ix2 r k) * s (ix2 r 0)) * Wl (ix2 k q)) + ∑ k : Fin 512, X (ix2 r k) * Wr (ix2 k q)) + b (ix2 0 q)

/-- What the body stores at row `r`, channel `q`: h · σ(h) of that pre-activation. -/
theorem stored_at (A : FVec Ideal S1000x512 .f32) (s : FVec Ideal S1000x1 .f32) (X : FVec Ideal S1000x512 .f32)
    (Wl Wr : FVec Ideal S512x512 .bf16) (b : FVec Ideal S1x512 .f32) (r : Fin 1000) (q : Fin 512) :
    k0_pay1 (F := Ideal) A s X Wl Wr b (ix2 r q)
      = blockPreact A s X Wl Wr b r q * Ideal.logistic (blockPreact A s X Wl Wr b r q) := by
  have hpre : addf (addf (matmul rowsByColumns none (truncf .bf16 (mulf A (broadcastTo S1000x512 s broadcasts_S1000x1_S1000x512)) bitsLt_bf16_f32) Wl (constant (F := Ideal) S1000x512 .f32 0x00000000#32))
        (matmul rowsByColumns none (truncf .bf16 X bitsLt_bf16_f32) Wr (constant (F := Ideal) S1000x512 .f32 0x00000000#32)))
        (broadcastTo S1000x512 b broadcasts_S1x512_S1000x512) (ix2 r q) = blockPreact A s X Wl Wr b r q := by
    rw [addf_apply, addf_apply, product_at, product_at, row_along_nodes]
    unfold blockPreact
    refine congrArg (· + _) (congrArg (· + _) (Finset.sum_congr rfl fun k _ => ?_))
    rw [truncf_apply, mulf_apply, column_along_features]
  unfold k0_pay1
  simp only [shapeCast_self]
  rw [mulf_apply]
  show _ * Ideal.logistic _ = _
  rw [hpre]

end Cert.Sage.Body

end
-- ==== Proof.BlockOfLayer.lean ====
/-
  A block of the kernel's output is a block of the layer.

  Suppose the blocks the body holds are the arrays' entries at the block's nodes: row `r` of the neighbour-sum and
  feature blocks is node `p`'s row of the arrays, row `r` of the reciprocal column is 1.0 / d(p), the weights are whole
  and the bias row is the bias. Then what the body stores at row `r`, channel `q` is the layer at node `p`, channel
  `q`, provided d(p) ≠ 0: scaling by the reciprocal is the quotient, and the bias may be added last.
-/
import proofs.«145215_j14697378087214_2_alg».proof.Proof.KernelBody
import proofs.«145215_j14697378087214_2_alg».proof.Proof.SageLayer

noncomputable section

namespace Cert.Sage.Body

open Cert.KernelIdeal Cert.KernelIdeal.Gen
open Idealize.ShloMosaic Idealize.ShloMosaic.ValueIdx
open scoped BigOperators

/-- The body's pre-activation at row `r` is the layer's at node `p`. -/
theorem blockPreact_is_preact (A : FVec Ideal S1000x512 .f32) (s : FVec Ideal S1000x1 .f32) (X : FVec Ideal S1000x512 .f32)
    (Wl Wr : FVec Ideal S512x512 .bf16) (b : FVec Ideal S1x512 .f32)
    (a : (⟨2, ![10000, 512]⟩ : Shape).Idx → EReal) (d : (⟨1, ![10000]⟩ : Shape).Idx → EReal)
    (x : (⟨2, ![10000, 512]⟩ : Shape).Idx → EReal) (wl wr : (⟨2, ![512, 512]⟩ : Shape).Idx → EReal)
    (bb : (⟨1, ![512]⟩ : Shape).Idx → EReal) (p : Fin 10000) (r : Fin 1000) (q : Fin 512)
    (hA : ∀ k : Fin 512, A (ix2 r k) = a (ix2 p k))
    (hs : s (ix2 r 0) = Ideal.div (Ideal.ofBits .f32 Cert.Sage.oneWord) (d (ix1 p)))
    (hX : ∀ k : Fin 512, X (ix2 r k) = x (ix2 p k))
    (hWl : ∀ k : Fin 512, Wl (ix2 k q) = wl (ix2 k q))
    (hWr : ∀ k : Fin 512, Wr (ix2 k q) = wr (ix2 k q))
    (hb : b (ix2 0 q) = bb (ix1 q)) (hd : d (ix1 p) ≠ 0) :
    blockPreact A s X Wl Wr b r q = Cert.Sage.preact a d x wl wr bb p q := by
  unfold blockPreact
  rw [hs, hb]
  simp only [hA, hX, hWl, hWr]
  exact Cert.Sage.preact_by_reciprocal a d x wl wr bb p q hd

/-- What the body stores at row `r`, channel `q` is the layer at node `p`, channel `q`. -/
theorem stored_is_layer (A : FVec Ideal S1000x512 .f32) (s : FVec Ideal S1000x1 .f32) (X : FVec Ideal S1000x512 .f32)
    (Wl Wr : FVec Ideal S512x512 .bf16) (b : FVec Ideal S1x512 .f32)
    (a : (⟨2, ![10000, 512]⟩ : Shape).Idx → EReal) (d : (⟨1, ![10000]⟩ : Shape).Idx → EReal)
    (x : (⟨2, ![10000, 512]⟩ : Shape).Idx → EReal) (wl wr : (⟨2, ![512, 512]⟩ : Shape).Idx → EReal)
    (bb : (⟨1, ![512]⟩ : Shape).Idx → EReal) (p : Fin 10000) (r : Fin 1000) (q : Fin 512)
    (hA : ∀ k : Fin 512, A (ix2 r k) = a (ix2 p k))
    (hs : s (ix2 r 0) = Ideal.div (Ideal.ofBits .f32 Cert.Sage.oneWord) (d (ix1 p)))
    (hX : ∀ k : Fin 512, X (ix2 r k) = x (ix2 p k))
    (hWl : ∀ k : Fin 512, Wl (ix2 k q) = wl (ix2 k q))
    (hWr : ∀ k : Fin 512, Wr (ix2 k q) = wr (ix2 k q))
    (hb : b (ix2 0 q) = bb (ix1 q)) (hd : d (ix1 p) ≠ 0) :
    k0_pay1 (F := Ideal) A s X Wl Wr b (ix2 r q) = Cert.Sage.layer a d x wl wr bb (ix2 p q) := by
  rw [stored_at, blockPreact_is_preact A s X Wl Wr b a d x wl wr bb p r q hA hs hX hWl hWr hb hd]
  rfl

end Cert.Sage.Body

end
-- ==== Proof.OutputArray.lean ====
/-
  From the blocks to the output array.

  The grid has ten points; point `t` holds nodes 1000·t … 1000·t + 999: the windows of the neighbour sums, the
  reciprocal column, the node features and the output sit at block row `t`, the two weight matrices and the bias row at
  their one block. So row `r` of every node-indexed block at point `t` is node 1000·t + r of its array, and what the
  point writes back is that block of the layer of the arguments. Every node lies in the block of point ⌊p / 1000⌋, so
  the ten blocks cover the output array, and after the run it holds the layer.
-/
import proofs.«145215_j14697378087214_2_alg».proof.Proof.Gen.KernelIdeal.Value
import proofs.«145215_j14697378087214_2_alg».proof.Proof.RegionInputs
import proofs.«145215_j14697378087214_2_alg».proof.Proof.BlockOfLayer
import proofs.«145215_j14697378087214_2_alg».proof.Proof.ReferenceLayer
import Idealize.ShloMosaic.Lib.Pipeline.Value

noncomputable section

namespace Cert.Sage.Output

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The neighbour sums of the arguments as launched on core `c`. -/
abbrev sums (c : Dev nD) :=
  Cert.ReferenceIdeal.Read.val_main_v13 (F := Ideal) (m ((c : Thread nD τ).loc main_arg0)) (m ((c : Thread nD τ).loc main_arg1))

/-- Their clipped in-degree. -/
abbrev degree (c : Dev nD) :=
  Cert.ReferenceIdeal.Read.val_main_v19 (F := Ideal) (m ((c : Thread nD τ).loc main_arg1))

/-- The layer of the arguments as launched on core `c`. -/
abbrev result (c : Dev nD) : S10000x512.Idx → EReal :=
  Cert.Sage.layer (sums m c) (degree m c) (m ((c : Thread nD τ).loc main_arg0)) (m ((c : Thread nD τ).loc main_arg2))
    (m ((c : Thread nD τ).loc main_arg3)) (m ((c : Thread nD τ).loc main_arg4))

/-- The index maps over the grid: the node-indexed windows at point `t` sit at block row `t`, the others at block 0. -/
theorem block_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 10 := lt_of_lt_of_eq t.isLt N_0

/-- The node in row `r` of the blocks at point `t`. -/
def node (t : Fin cfg0.N) (r : Fin 1000) : Fin 10000 :=
  ⟨1000 * t.val + r.val, by have := point_lt t; have := r.isLt; omega⟩

/-! ### Each window's block at a point, read in its array -/

theorem sums_block (c : Dev nD) (t : Fin cfg0.N) (r : Fin 1000) (k : Fin 512) :
    (iblk m c 0 t : S1000x512.Idx → EReal) (ix2 r k) = (V m c main_v13 : S10000x512.Idx → EReal) (ix2 (node t r) k) := by
  obtain ⟨e0, e1, -⟩ := block_rows t
  show V m c main_v13 (((cfg0.win 0).blk t).view.emb (ix2 r k)) = _
  refine congrArg (V m c main_v13 : S10000x512.Idx → EReal) (funext fun a => Fin.ext ?_)
  match a with
  | ⟨0, _⟩ => show win0_0.index t (0 : Fin 2) * 1000 + 1 * r.val = 1000 * t.val + r.val; rw [e0]; omega
  | ⟨1, _⟩ => show win0_0.index t (1 : Fin 2) * 512 + 1 * k.val = k.val; rw [e1]; omega

theorem reciprocal_block (c : Dev nD) (t : Fin cfg0.N) (r : Fin 1000) :
    (iblk m c 1 t : S1000x1.Idx → EReal) (ix2 r 0) = (V m c main_v22 : S10000x1.Idx → EReal) (ix2 (node t r) 0) := by
  obtain ⟨-, -, e0, e1, -⟩ := block_rows t
  show V m c main_v22 (((cfg0.win 1).blk t).view.emb (ix2 r 0)) = _
  refine congrArg (V m c main_v22 : S10000x1.Idx → EReal) (funext fun a => Fin.ext ?_)
  match a with
  | ⟨0, _⟩ => show win0_1.index t (0 : Fin 2) * 1000 + 1 * r.val = 1000 * t.val + r.val; rw [e0]; omega
  | ⟨1, _⟩ => show win0_1.index t (1 : Fin 2) * 1 + 1 * 0 = 0; rw [e1]

theorem features_block (c : Dev nD) (t : Fin cfg0.N) (r : Fin 1000) (k : Fin 512) :
    (iblk m c 2 t : S1000x512.Idx → EReal) (ix2 r k) = (V m c main_arg0 : S10000x512.Idx → EReal) (ix2 (node t r) k) := by
  obtain ⟨-, -, -, -, e0, e1, -⟩ := block_rows t
  show V m c main_arg0 (((cfg0.win 2).blk t).view.emb (ix2 r k)) = _
  refine congrArg (V m c main_arg0 : S10000x512.Idx → EReal) (funext fun a => Fin.ext ?_)
  match a with
  | ⟨0, _⟩ => show win0_2.index t (0 : Fin 2) * 1000 + 1 * r.val = 1000 * t.val + r.val; rw [e0]; omega
  | ⟨1, _⟩ => show win0_2.index t (1 : Fin 2) * 512 + 1 * k.val = k.val; rw [e1]; omega

theorem left_weights_block (c : Dev nD) (t : Fin cfg0.N) (k q : Fin 512) :
    (iblk m c 3 t : S512x512.Idx → EReal) (ix2 k q) = (V m c main_v23 : S512x512.Idx → EReal) (ix2 k q) := by
  obtain ⟨-, -, -, -, -, -, e0, e1, -⟩ := block_rows t
  show V m c main_v23 (((cfg0.win 3).blk t).view.emb (ix2 k q)) = _
  refine congrArg (V m c main_v23 : S512x512.Idx → EReal) (funext fun a => Fin.ext ?_)
  match a with
  | ⟨0, _⟩ => show win0_3.index t (0 : Fin 2) * 512 + 1 * k.val = k.val; rw [e0]; omega
  | ⟨1, _⟩ => show win0_3.index t (1 : Fin 2) * 512 + 1 * q.val = q.val; rw [e1]; omega

theorem right_weights_block (c : Dev nD) (t : Fin cfg0.N) (k q : Fin 512) :
    (iblk m c 4 t : S512x512.Idx → EReal) (ix2 k q) = (V m c main_v24 : S512x512.Idx → EReal) (ix2 k q) := by
  obtain ⟨-, -, -, -, -, -, -, -, e0, e1, -⟩ := block_rows t
  show V m c main_v24 (((cfg0.win 4).blk t).view.emb (ix2 k q)) = _
  refine congrArg (V m c main_v24 : S512x512.Idx → EReal) (funext fun a => Fin.ext ?_)
  match a with
  | ⟨0, _⟩ => show win0_4.index t (0 : Fin 2) * 512 + 1 * k.val = k.val; rw [e0]; omega
  | ⟨1, _⟩ => show win0_4.index t (1 : Fin 2) * 512 + 1 * q.val = q.val; rw [e1]; omega

theorem bias_block (c : Dev nD) (t : Fin cfg0.N) (q : Fin 512) :
    (iblk m c 5 t : S1x512.Idx → EReal) (ix2 0 q) = (V m c main_v25 : S1x512.Idx → EReal) (ix2 0 q) := by
  obtain ⟨-, -, -, -, -, -, -, -, -, -, e0, e1, -⟩ := block_rows t
  show V m c main_v25 (((cfg0.win 5).blk t).view.emb (ix2 0 q)) = _
  refine congrArg (V m c main_v25 : S1x512.Idx → EReal) (funext fun a => Fin.ext ?_)
  match a with
  | ⟨0, _⟩ => show win0_5.index t (0 : Fin 2) * 1 + 1 * 0 = 0; rw [e0]
  | ⟨1, _⟩ => show win0_5.index t (1 : Fin 2) * 512 + 1 * q.val = q.val; rw [e1]; omega

/-! ### What a point writes back -/

/-- At point `t` the body stores, at row `r` and channel `q`, the layer at node 1000·t + r, channel `q`. -/
theorem point_stores_layer (c : Dev nD) (t : Fin cfg0.N) (r : Fin 1000) (q : Fin 512) :
    k0_pay1 (F := Ideal) (iblk m c 0 t) (iblk m c 1 t) (iblk m c 2 t) (iblk m c 3 t) (iblk m c 4 t) (iblk m c 5 t) (ix2 r q)
      = result m c (ix2 (node t r) q) := by
  refine Cert.Sage.Body.stored_is_layer (iblk m c 0 t) (iblk m c 1 t) (iblk m c 2 t) (iblk m c 3 t) (iblk m c 4 t) (iblk m c 5 t)
    (sums m c) (degree m c) (m ((c : Thread nD τ).loc main_arg0)) (m ((c : Thread nD τ).loc main_arg2))
    (m ((c : Thread nD τ).loc main_arg3)) (m ((c : Thread nD τ).loc main_arg4)) (node t r) r q ?_ ?_ ?_ ?_ ?_ ?_ ?_
  · intro k; rw [sums_block, Cert.Sage.Inputs.sums_entering]
  · rw [reciprocal_block, Cert.Sage.Inputs.reciprocal_at]
  · intro k; rw [features_block, V_main_arg0]
  · intro k; rw [left_weights_block, Cert.Sage.Inputs.left_weights_entering]
  · intro k; rw [right_weights_block, Cert.Sage.Inputs.right_weights_entering]
  · rw [bias_block, Cert.Sage.Inputs.bias_at]
  · exact Cert.Sage.Reference.degree_ne_zero _ _

/-- What point `t` writes back is its block of the layer. -/
theorem flushed_is_block (c : Dev nD) (t : Fin cfg0.N) :
    (dats m 0 c).flushed 6 t = ((cfg0.win 6).blk t).view.read (Elt Ideal) (result m c) := by
  obtain ⟨-, -, -, -, -, -, -, -, -, -, -, -, e0, e1⟩ := block_rows t
  rw [flushed6]
  unfold out0_6
  rw [View.canon_unit_zero origin]
  simp only [View.ld_unit_zero (S := S1000x512) origin, View.ld_unit_zero (S := S1000x1) origin,
    View.ld_unit_zero (S := S512x512) origin, View.ld_unit_zero (S := S1x512) origin]
  funext j
  show k0_pay1 (F := Ideal) (iblk m c 0 t) (iblk m c 1 t) (iblk m c 2 t) (iblk m c 3 t) (iblk m c 4 t) (iblk m c 5 t) j
      = result m c (((cfg0.win 6).blk t).view.emb j)
  have hemb : ((cfg0.win 6).blk t).view.emb j = ix2 (node t (j 0)) (j 1) := funext fun a => Fin.ext (by
    match a with
    | ⟨0, _⟩ => show win0_6.index t (0 : Fin 2) * 1000 + 1 * (j 0).val = 1000 * t.val + (j 0).val; rw [e0]; omega
    | ⟨1, _⟩ => show win0_6.index t (1 : Fin 2) * 512 + 1 * (j 1).val = (j 1).val; rw [e1]; omega)
  rw [hemb]
  exact (congrArg (k0_pay1 (F := Ideal) (iblk m c 0 t) (iblk m c 1 t) (iblk m c 2 t) (iblk m c 3 t) (iblk m c 4 t) (iblk m c 5 t)) (eq_ix2 j)).trans
    (point_stores_layer m c t (j 0) (j 1))

/-! ### The cover and the run -/

/-- An index of the output array is in point `t`'s block iff each coordinate is in the block's range on its axis. -/
theorem mem_block (t : Fin cfg0.N) (i : S10000x512.Idx) :
    i ∈ ((cfg0.win 6).blk t).view.set ↔ ∀ a : Fin 2, win0_6.index t a * S1000x512.size a ≤ (i a).val ∧ (i a).val < win0_6.index t a * S1000x512.size a + S1000x512.size a := by
  show i ∈ ((View.whole main_v26).slice (win0_6.rect t)).set ↔ _
  rw [View.set_slice_whole, Rect.mem_set_unit]
  exact Iff.rfl

/-- Every entry of the output array is in the block of the point that holds its node. -/
theorem covered (i : S10000x512.Idx) : ∃ t : Fin cfg0.N, (cfg0.win 6).flush t = true ∧ i ∈ ((cfg0.win 6).blk t).view.set := by
  have hi0 : (i 0).val < 10000 := (i 0).isLt
  have hi1 : (i 1).val < 512 := (i 1).isLt
  have hN : cfg0.N = 10 := N_0
  have ht : (i 0).val / 1000 < cfg0.N := by rw [hN]; omega
  obtain ⟨-, -, -, -, -, -, -, -, -, -, -, -, e0, e1⟩ := block_rows ⟨(i 0).val / 1000, ht⟩
  refine ⟨⟨(i 0).val / 1000, ht⟩, flush0_6 _, ?_⟩
  rw [mem_block]
  intro a
  match a with
  | ⟨0, _⟩ =>
    show win0_6.index ⟨(i 0).val / 1000, ht⟩ (0 : Fin 2) * 1000 ≤ (i 0).val ∧ (i 0).val < win0_6.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win0_6.index ⟨(i 0).val / 1000, ht⟩ (1 : Fin 2) * 512 ≤ (i 1).val ∧ (i 1).val < win0_6.index ⟨(i 0).val / 1000, ht⟩ (1 : Fin 2) * 512 + 512
    rw [e1]; omega

/-- After the run the output array holds the layer of the arguments. -/
theorem final (c : Dev nD) : (dats m 0 c).arrAt 6 cfg0.N = result m c :=
  (dats m 0 c).arrAt_eq_of_cover 6 (result m c) (fun t _ => flushed_is_block m c t) covered

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Sage.Output

end
-- ==== Proof.lean ====
/-
  A mean-aggregation graph layer computed two ways, equal on the extended reals.

  Both programs gather the source nodes' feature rows, scatter-add them at the target nodes into neighbour sums `a`,
  scatter-add ones into an in-degree and clip it from below at 1 (`d`), and return h · σ(h) for

      h(p,q) = Σ_k mean(p,k) · W_l(k,q) + Σ_k x(p,k) · W_r(k,q) + b(q).

  The reference takes mean(p,k) = a(p,k) / d(p), adds the bias between the two sums and spells the logistic function
  σ as 1 / (1 + exp (-h)). The kernel computes the reciprocal 1 / d(p) once per node on the host and, in ten blocks of
  1000 nodes, scales the neighbour sums by it, feeds both products to the matrix unit after a change of float format,
  adds the bias last and applies the logistic operation. On the extended reals the change of format is the identity,
  each matrix product is the sum over the contracted axis, a quotient by the nonzero `d(p)` is the product with its
  reciprocal (for every numerator, the infinities included), addition is commutative and associative, and the expanded
  quotient is the logistic function: the two results are one function of the arguments, index by index. The gather
  and the scatter-adds are the same operations of the same arguments on both sides and are never opened, and the
  finiteness of the inputs is not used.

  The kernel's frames are the generated ones; the reference's frame is its generated run with the result dropped; no
  operation was rewritten in idealizing the kernel, so there is nothing to preserve.
-/
import proofs.«145215_j14697378087214_2_alg».proof.Defs
import proofs.«145215_j14697378087214_2_alg».proof.Proof.Gen.Kernel
import proofs.«145215_j14697378087214_2_alg».proof.Proof.Gen.Kernel.Skeleton
import proofs.«145215_j14697378087214_2_alg».proof.Proof.Gen.Kernel.Launch
import proofs.«145215_j14697378087214_2_alg».proof.Proof.Gen.Kernel.Points
import proofs.«145215_j14697378087214_2_alg».proof.Proof.Gen.Kernel.Frame
import proofs.«145215_j14697378087214_2_alg».proof.Proof.Gen.KernelIdeal
import proofs.«145215_j14697378087214_2_alg».proof.Proof.Gen.KernelIdeal.Skeleton
import proofs.«145215_j14697378087214_2_alg».proof.Proof.Gen.KernelIdeal.Launch
import proofs.«145215_j14697378087214_2_alg».proof.Proof.Gen.KernelIdeal.Points
import proofs.«145215_j14697378087214_2_alg».proof.Proof.Gen.KernelIdeal.Frame
import proofs.«145215_j14697378087214_2_alg».proof.Proof.Gen.KernelIdeal.Value
import proofs.«145215_j14697378087214_2_alg».proof.Proof.Gen.ReferenceIdeal
import proofs.«145215_j14697378087214_2_alg».proof.Proof.Gen.ReferenceIdeal.Run
import proofs.«145215_j14697378087214_2_alg».proof.Proof.Gen.ReferenceIdeal.Read
import proofs.«145215_j14697378087214_2_alg».proof.Proof.Gen.Pre_finite_inputs
import proofs.«145215_j14697378087214_2_alg».proof.Proof.ReferenceLayer
import proofs.«145215_j14697378087214_2_alg».proof.Proof.OutputArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments the kernel's result array ends at the layer of the arguments (ten blocks of
    it, covering the array) and the reference's at its last stage, which is the same layer of the same arguments. -/
theorem algebraic : Cert.algebraic_KernelIdeal_ReferenceIdeal := by
  intro m ρ m' ρ' _ hagree
  refine ⟨fun c => Cert.Sage.Output.result m c, Cert.Sage.Output.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.Sage.Reference.result_is_layer,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
